-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S65536x128 : Shape := ⟨2, ![65536, 128]⟩
abbrev S1048576 : Shape := ⟨1, ![1048576]⟩
abbrev S32768 : Shape := ⟨1, ![32768]⟩
abbrev S32768x32 : Shape := ⟨2, ![32768, 32]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_
  bcast_S_S1048576 : S_.BroadcastsInDim S1048576 (![] : Fin 0 → Fin S1048576.rank)
  reducesTo_S1048576_S_d0 : S1048576.ReducesTo [0] S_

variable [Facts]

def fn {F : FTy → Type} [FloatOps F] (main_arg0 : FVec F S32768x128 .f32) (main_arg1 : FVec F S65536x128 .f32) (main_arg2 : FVec F S1048576 .f32) (main_arg3 : IVec S32768 32) (main_arg4 : IVec S32768x32 32) (main_arg5 : IVec S32768x32 32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S1048576 .f32 := Host.absf main_arg2
  let main_cst_2 : FVec F S_ .f32 := constant S_ .f32 0x7F800000#32
  let main_v10 : FVec F S1048576 .f32 := broadcastInDim S1048576 ![] bcast_S_S1048576 main_cst_2
  let main_v11 : IVec S1048576 1 := cmpf .olt main_v9 main_v10
  let main_c_3 : IVec S_ 1 := constantI S_ 1 1#1
  let main_v12 : IVec S_ 1 := (fun x v => Host.reduce IntOp.andi x v reducesTo_S1048576_S_d0 h_S_) main_v11 main_c_3
  let main_v13 : IVec S_ 1 := andi main_v8 main_v12
  main_v13
-- ==== Kernel.lean ====
abbrev S32768x128 : Shape := ⟨2, ![32768, 128]⟩
abbrev S65536x128 : Shape := ⟨2, ![65536, 128]⟩
abbrev S1048576 : Shape := ⟨1, ![1048576]⟩
abbrev S32768 : Shape := ⟨1, ![32768]⟩
abbrev S32768x32 : Shape := ⟨2, ![32768, 32]⟩
abbrev S_ : Shape := ⟨0, ![]⟩
abbrev S32768x32x1 : Shape := ⟨3, ![32768, 32, 1]⟩
abbrev S32768x32x128 : Shape := ⟨3, ![32768, 32, 128]⟩
abbrev S512x32x128 : Shape := ⟨3, ![512, 32, 128]⟩
abbrev S512x32 : Shape := ⟨2, ![512, 32]⟩
abbrev S512x128 : Shape := ⟨2, ![512, 128]⟩
abbrev S512x8x128 : Shape := ⟨3, ![512, 8, 128]⟩
abbrev S512x8 : Shape := ⟨2, ![512, 8]⟩
abbrev S512x1x128 : Shape := ⟨3, ![512, 1, 128]⟩
abbrev S512x8x1 : Shape := ⟨3, ![512, 8, 1]⟩
abbrev S32768x1 : Shape := ⟨2, ![32768, 1]⟩

abbrev nBuf : Space → Nat
  | .hbm => 34
  | .vmem => 6
  | .smem => 0
  | _ => 0

abbrev bufTy : (tb : Table) → Fin (tcTables nBuf tb) → BufTy
  | .hbm, ⟨0, _⟩ => ⟨S32768x128, .f32⟩
  | .hbm, ⟨1, _⟩ => ⟨S65536x128, .f32⟩
  | .hbm, ⟨2, _⟩ => ⟨S1048576, .f32⟩
  | .hbm, ⟨3, _⟩ => ⟨S32768, .i32⟩
  | .hbm, ⟨4, _⟩ => ⟨S32768x32, .i32⟩
  | .hbm, ⟨5, _⟩ => ⟨S32768x32, .i32⟩
  | .hbm, ⟨6, _⟩ => ⟨S_, .i32⟩
  | .hbm, ⟨7, _⟩ => ⟨S32768x32, .i32⟩
  | .hbm, ⟨8, _⟩ => ⟨S32768x32, .i1⟩
  | .hbm, ⟨9, _⟩ => ⟨S_, .i32⟩
  | .hbm, ⟨10, _⟩ => ⟨S32768x32, .i32⟩
  | .hbm, ⟨11, _⟩ => ⟨S32768x32, .i32⟩
  | .hbm, ⟨12, _⟩ => ⟨S32768x32, .i32⟩
  | .hbm, ⟨13, _⟩ => ⟨S32768x32x1, .i32⟩
  | .hbm, ⟨14, _⟩ => ⟨S32768x32x128, .f32⟩
  | .hbm, ⟨15, _⟩ => ⟨S_, .i32⟩
  | .hbm, ⟨16, _⟩ => ⟨S32768x32, .i32⟩
  | .hbm, ⟨17, _⟩ => ⟨S32768x32, .i1⟩
  | .hbm, ⟨18, _⟩ => ⟨S_, .i32⟩
  | .hbm, ⟨19, _⟩ => ⟨S32768x32, .i32⟩
  | .hbm, ⟨20, _⟩ => ⟨S32768x32, .i32⟩
  | .hbm, ⟨21, _⟩ => ⟨S32768x32, .i32⟩
  | .hbm, ⟨22, _⟩ => ⟨S32768x32x1, .i32⟩
  | .hbm, ⟨23, _⟩ => ⟨S32768x32, .f32⟩
  | .hbm, ⟨24, _⟩ => ⟨S32768x128, .f32⟩
  | .hbm, ⟨25, _⟩ => ⟨S_, .i32⟩
  | .hbm, ⟨26, _⟩ => ⟨S32768, .i32⟩
  | .hbm, ⟨27, _⟩ => ⟨S32768, .i1⟩
  | .hbm, ⟨28, _⟩ => ⟨S_, .i32⟩
  | .hbm, ⟨29, _⟩ => ⟨S32768, .i32⟩
  | .hbm, ⟨30, _⟩ => ⟨S32768, .i32⟩
  | .hbm, ⟨31, _⟩ => ⟨S32768, .i32⟩
  | .hbm, ⟨32, _⟩ => ⟨S32768x1, .i32⟩
  | .hbm, ⟨33, _⟩ => ⟨S32768x128, .f32⟩
  | .local _ .vmem, ⟨0, _⟩ => ⟨S512x32x128, .f32⟩
  | .local _ .vmem, ⟨1, _⟩ => ⟨S512x32x128, .f32⟩
  | .local _ .vmem, ⟨2, _⟩ => ⟨S512x32, .f32⟩
  | .local _ .vmem, ⟨3, _⟩ => ⟨S512x32, .f32⟩
  | .local _ .vmem, ⟨4, _⟩ => ⟨S512x128, .f32⟩
  | .local _ .vmem, ⟨5, _⟩ => ⟨S512x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S32768x32 : S_.BroadcastsInDim S32768x32 (![] : Fin 0 → Fin S32768x32.rank)
  bcast_S32768x32_S32768x32x1_0_1 : S32768x32.BroadcastsInDim S32768x32x1 (![0, 1] : Fin 2 → Fin S32768x32x1.rank)
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S512x32x128_S512x8x128_0_0_0 : ∀ a, (![0, 0, 0] : Fin 3 → Nat) a + S512x8x128.size a ≤ S512x32x128.size a
  h_S512x8x128 : 0 < S512x8x128.numel
  shapeCasts_S512x8x128_S512x8x128 : S512x8x128.ShapeCasts S512x8x128
  reduces_S512x8x128_S512x128 : S512x8x128.Reduces [1] S512x128
  inb_S512x32x128_S512x8x128_0_8_0 : ∀ a, (![0, 8, 0] : Fin 3 → Nat) a + S512x8x128.size a ≤ S512x32x128.size a
  inb_S512x32x128_S512x8x128_0_16_0 : ∀ a, (![0, 16, 0] : Fin 3 → Nat) a + S512x8x128.size a ≤ S512x32x128.size a
  inb_S512x32x128_S512x8x128_0_24_0 : ∀ a, (![0, 24, 0] : Fin 3 → Nat) a + S512x8x128.size a ≤ S512x32x128.size a
  slices_S512x32_o0_0_S512x8 : S512x32.Slices ![0, 0] S512x8
  shapeCasts_S512x128_S512x1x128 : S512x128.ShapeCasts S512x1x128
  broadcasts_S512x1x128_S512x8x128 : S512x1x128.Broadcasts S512x8x128
  shapeCasts_S512x8_S512x8x1 : S512x8.ShapeCasts S512x8x1
  broadcasts_S512x8x1_S512x8x128 : S512x8x1.Broadcasts S512x8x128
  slices_S512x32_o0_8_S512x8 : S512x32.Slices ![0, 8] S512x8
  slices_S512x32_o0_16_S512x8 : S512x32.Slices ![0, 16] S512x8
  slices_S512x32_o0_24_S512x8 : S512x32.Slices ![0, 24] S512x8
  inb_S512x128_S512x128_0_0 : ∀ a, (![0, 0] : Fin 2 → Nat) a + S512x128.size a ≤ S512x128.size a
  h_S512x128 : 0 < S512x128.numel
  bcast_S_S32768 : S_.BroadcastsInDim S32768 (![] : Fin 0 → Fin S32768.rank)
  bcast_S32768_S32768x1_0 : S32768.BroadcastsInDim S32768x1 (![0] : Fin 1 → Fin S32768x1.rank)
  gather_S65536x128_S32768x32x1_S32768x32x128_2_0_n_n_0_2_1128_wf : GatherDims.WF S65536x128 S32768x32x1 S32768x32x128 [2] [0] [] [0] [] 2 ![1, 128]
  gather_S1048576_S32768x32x1_S32768x32_n_0_n_n_0_2_1_wf : GatherDims.WF S1048576 S32768x32x1 S32768x32 [] [0] [] [0] [] 2 ![1]
  scatter_S32768x128_S32768x1_S32768x128_1_0_0_1_wf : ScatterDims.WF S32768x128 S32768x1 S32768x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32x128.size a ≤ S32768x32x128.size a
  hwx0_0 : ∀ i : grid0.Coords, EltTy.bits .f32 = 32 ∨ (Rect.block (s := S32768x32x128) S512x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S32768x32.size a
  hwx0_1 : ∀ i : grid0.Coords, EltTy.bits .f32 = 32 ∨ (Rect.block (s := S32768x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S32768x128.size a
  hwx0_2 : ∀ i : grid0.Coords, EltTy.bits .f32 = 32 ∨ (Rect.block (s := S32768x128) S512x128.size (cc0_transform_2 i) (hinb0_2 i)).WholeWords (EltTy.packing .f32)

variable [Facts₀]

def gather_S65536x128_S32768x32x1_S32768x32x128_2_0_n_n_0_2_1128 : GatherDims S65536x128 S32768x32x1 S32768x32x128 where
  offsetDims := [2]
  collapsedSliceDims := [0]
  operandBatchingDims := []
  startIndicesBatchingDims := []
  startIndexMap := [0]
  indexVectorDim := 2
  sliceSizes := ![1, 128]
  wf := gather_S65536x128_S32768x32x1_S32768x32x128_2_0_n_n_0_2_1128_wf
def gather_S1048576_S32768x32x1_S32768x32_n_0_n_n_0_2_1 : GatherDims S1048576 S32768x32x1 S32768x32 where
  offsetDims := []
  collapsedSliceDims := [0]
  operandBatchingDims := []
  startIndicesBatchingDims := []
  startIndexMap := [0]
  indexVectorDim := 2
  sliceSizes := ![1]
  wf := gather_S1048576_S32768x32x1_S32768x32_n_0_n_n_0_2_1_wf
def scatter_S32768x128_S32768x1_S32768x128_1_0_0_1 : ScatterDims S32768x128 S32768x1 S32768x128 where
  updateWindowDims := [1]
  insertedWindowDims := [0]
  scatterDimsToOperandDims := [0]
  indexVectorDim := 1
  wf := scatter_S32768x128_S32768x1_S32768x128_1_0_0_1_wf

abbrev win0_0 : Pipeline.Window sig grid0 :=
  Pipeline.Window.ofSpec (Memref.whole main_v6) S512x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x128 : Shape := ⟨2, ![32768, 128]⟩
abbrev S65536x128 : Shape := ⟨2, ![65536, 128]⟩
abbrev S1048576 : Shape := ⟨1, ![1048576]⟩
abbrev S32768 : Shape := ⟨1, ![32768]⟩
abbrev S32768x32 : Shape := ⟨2, ![32768, 32]⟩
abbrev S_ : Shape := ⟨0, ![]⟩
abbrev S32768x32x1 : Shape := ⟨3, ![32768, 32, 1]⟩
abbrev S32768x32x128 : Shape := ⟨3, ![32768, 32, 128]⟩
abbrev S32768x1x128 : Shape := ⟨3, ![32768, 1, 128]⟩
abbrev S32768x1 : Shape := ⟨2, ![32768, 1]⟩

abbrev nBuf : Space → Nat
  | .hbm => 51
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S65536x128, .f32⟩
  | .hbm, ⟨2, _⟩ => ⟨S1048576, .f32⟩
  | .hbm, ⟨3, _⟩ => ⟨S32768, .i32⟩
  | .hbm, ⟨4, _⟩ => ⟨S32768x32, .i32⟩
  | .hbm, ⟨5, _⟩ => ⟨S32768x32, .i32⟩
  | .hbm, ⟨6, _⟩ => ⟨S_, .i32⟩
  | .hbm, ⟨7, _⟩ => ⟨S32768x32, .i32⟩
  | .hbm, ⟨8, _⟩ => ⟨S32768x32, .i1⟩
  | .hbm, ⟨9, _⟩ => ⟨S_, .i32⟩
  | .hbm, ⟨10, _⟩ => ⟨S32768x32, .i32⟩
  | .hbm, ⟨11, _⟩ => ⟨S32768x32, .i32⟩
  | .hbm, ⟨12, _⟩ => ⟨S32768x32, .i32⟩
  | .hbm, ⟨13, _⟩ => ⟨S32768x32x1, .i32⟩
  | .hbm, ⟨14, _⟩ => ⟨S32768x32x128, .f32⟩
  | .hbm, ⟨15, _⟩ => ⟨S_, .f32⟩
  | .hbm, ⟨16, _⟩ => ⟨S32768x128, .f32⟩
  | .hbm, ⟨17, _⟩ => ⟨S32768x1x128, .f32⟩
  | .hbm, ⟨18, _⟩ => ⟨S_, .i32⟩
  | .hbm, ⟨19, _⟩ => ⟨S32768x32, .i32⟩
  | .hbm, ⟨20, _⟩ => ⟨S32768x32, .i1⟩
  | .hbm, ⟨21, _⟩ => ⟨S_, .i32⟩
  | .hbm, ⟨22, _⟩ => ⟨S32768x32, .i32⟩
  | .hbm, ⟨23, _⟩ => ⟨S32768x32, .i32⟩
  | .hbm, ⟨24, _⟩ => ⟨S32768x32, .i32⟩
  | .hbm, ⟨25, _⟩ => ⟨S32768x32x1, .i32⟩
  | .hbm, ⟨26, _⟩ => ⟨S32768x32, .f32⟩
  | .hbm, ⟨27, _⟩ => ⟨S32768x32x1, .f32⟩
  | .hbm, ⟨28, _⟩ => ⟨S32768x32x128, .f32⟩
  | .hbm, ⟨29, _⟩ => ⟨S32768x32x128, .f32⟩
  | .hbm, ⟨30, _⟩ => ⟨S32768x32x128, .f32⟩
  | .hbm, ⟨31, _⟩ => ⟨S32768x32x128, .f32⟩
  | .hbm, ⟨32, _⟩ => ⟨S32768x32x128, .f32⟩
  | .hbm, ⟨33, _⟩ => ⟨S_, .f32⟩
  | .hbm, ⟨34, _⟩ => ⟨S32768x128, .f32⟩
  | .hbm, ⟨35, _⟩ => ⟨S_, .f32⟩
  | .hbm, ⟨36, _⟩ => ⟨S_, .f32⟩
  | .hbm, ⟨37, _⟩ => ⟨S32768x128, .f32⟩
  | .hbm, ⟨38, _⟩ => ⟨S32768x128, .f32⟩
  | .hbm, ⟨39, _⟩ => ⟨S32768x128, .f32⟩
  | .hbm, ⟨40, _⟩ => ⟨S32768x128, .f32⟩
  | .hbm, ⟨41, _⟩ => ⟨S32768x128, .f32⟩
  | .hbm, ⟨42, _⟩ => ⟨S_, .i32⟩
  | .hbm, ⟨43, _⟩ => ⟨S32768, .i32⟩
  | .hbm, ⟨44, _⟩ => ⟨S32768, .i1⟩
  | .hbm, ⟨45, _⟩ => ⟨S_, .i32⟩
  | .hbm, ⟨46, _⟩ => ⟨S32768, .i32⟩
  | .hbm, ⟨47, _⟩ => ⟨S32768, .i32⟩
  | .hbm, ⟨48, _⟩ => ⟨S32768, .i32⟩
  | .hbm, ⟨49, _⟩ => ⟨S32768x1, .i32⟩
  | .hbm, ⟨50, _⟩ => ⟨S32768x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  bcast_S_S32768x32 : S_.BroadcastsInDim S32768x32 (![] : Fin 0 → Fin S32768x32.rank)
  bcast_S32768x32_S32768x32x1_0_1 : S32768x32.BroadcastsInDim S32768x32x1 (![0, 1] : Fin 2 → Fin S32768x32x1.rank)
  reducesTo_S32768x32x128_S32768x128_d1 : S32768x32x128.ReducesTo [1] S32768x128
  h_S_ : 0 < S_.numel
  bcast_S32768x128_S32768x1x128_0_2 : S32768x128.BroadcastsInDim S32768x1x128 (![0, 2] : Fin 2 → Fin S32768x1x128.rank)
  bcast_S32768x1x128_S32768x32x128_0_1_2 : S32768x1x128.BroadcastsInDim S32768x32x128 (![0, 1, 2] : Fin 3 → Fin S32768x32x128.rank)
  bcast_S32768x32x1_S32768x32x128_0_1_2 : S32768x32x1.BroadcastsInDim S32768x32x128 (![0, 1, 2] : Fin 3 → Fin S32768x32x128.rank)
  bcast_S_S32768x128 : S_.BroadcastsInDim S32768x128 (![] : Fin 0 → Fin S32768x128.rank)
  shapeCasts_S32768x1x128_S32768x128 : S32768x1x128.ShapeCasts S32768x128
  bcast_S_S32768 : S_.BroadcastsInDim S32768 (![] : Fin 0 → Fin S32768.rank)
  bcast_S32768_S32768x1_0 : S32768.BroadcastsInDim S32768x1 (![0] : Fin 1 → Fin S32768x1.rank)
  gather_S65536x128_S32768x32x1_S32768x32x128_2_0_n_n_0_2_1128_wf : GatherDims.WF S65536x128 S32768x32x1 S32768x32x128 [2] [0] [] [0] [] 2 ![1, 128]
  gather_S1048576_S32768x32x1_S32768x32_n_0_n_n_0_2_1_wf : GatherDims.WF S1048576 S32768x32x1 S32768x32 [] [0] [] [0] [] 2 ![1]
  scatter_S32768x128_S32768x1_S32768x128_1_0_0_1_wf : ScatterDims.WF S32768x128 S32768x1 S32768x128 [1] [0] [0] 1

variable [Facts₀]

def gather_S65536x128_S32768x32x1_S32768x32x128_2_0_n_n_0_2_1128 : GatherDims S65536x128 S32768x32x1 S32768x32x128 where
  offsetDims := [2]
  collapsedSliceDims := [0]
  operandBatchingDims := []
  startIndicesBatchingDims := []
  startIndexMap := [0]
  indexVectorDim := 2
  sliceSizes := ![1, 128]
  wf := gather_S65536x128_S32768x32x1_S32768x32x128_2_0_n_n_0_2_1128_wf
def gather_S1048576_S32768x32x1_S32768x32_n_0_n_n_0_2_1 : GatherDims S1048576 S32768x32x1 S32768x32 where
  offsetDims := []
  collapsedSliceDims := [0]
  operandBatchingDims := []
  startIndicesBatchingDims := []
  startIndexMap := [0]
  indexVectorDim := 2
  sliceSizes := ![1]
  wf := gather_S1048576_S32768x32x1_S32768x32_n_0_n_n_0_2_1_wf
def scatter_S32768x128_S32768x1_S32768x128_1_0_0_1 : ScatterDims S32768x128 S32768x1 S32768x128 where
  updateWindowDims := [1]
  insertedWindowDims := [0]
  scatterDimsToOperandDims := [0]
  indexVectorDim := 1
  wf := scatter_S32768x128_S32768x1_S32768x128_1_0_0_1_wf

class Facts : Prop extends Facts₀ where

variable [Facts]
-- ==== Proof.LibFoldAppend.lean ====
/-
  Folds of max and of min over two runs laid end to end.

  For a linear order, a fold of max from an initial value b over m + n entries is the larger of the fold over the first
  m entries and the fold over the last n, each started again from b: max is associative, commutative and idempotent,
  so starting both halves from b costs nothing. Dually for min. Stated over Fin (m + n) with the two halves read
  through Fin.castAdd and Fin.natAdd, the shape a reduction walked in consecutive runs takes: applied repeatedly it
  turns a running maximum (or minimum) of k runs' extrema into the one extremum over the whole range.

  The proofs compare upper bounds (lower bounds for min): a bound of the whole fold is a bound of b and of every entry.
-/
import Idealize.ShloMosaic.PureOps.Ideal

namespace Cert.LibFoldAppend

/-- The fold of max over m + n entries from b is the larger of the folds over the first m and over the last n entries,
    each from b. -/
theorem fold_max_append {α : Type*} [LinearOrder α] {m n : ℕ} (b : α) (f : Fin (m + n) → α) :
    (Finset.univ : Finset (Fin (m + n))).fold max b f
      = max ((Finset.univ : Finset (Fin m)).fold max b fun i => f (Fin.castAdd n i))
            ((Finset.univ : Finset (Fin n)).fold max b fun i => f (Fin.natAdd m i)) := by
  apply le_antisymm
  · refine (Finset.fold_max_le _).2 ⟨le_max_of_le_left ((Finset.le_fold_max _).2 (Or.inl le_rfl)), fun x _ => ?_⟩
    refine Fin.addCases (motive := fun x => f x ≤ _) (fun i => ?_) (fun i => ?_) x
    · exact le_max_of_le_left ((Finset.le_fold_max _).2 (Or.inr ⟨i, Finset.mem_univ _, le_rfl⟩))
    · exact le_max_of_le_right ((Finset.le_fold_max _).2 (Or.inr ⟨i, Finset.mem_univ _, le_rfl⟩))
  · refine max_le ((Finset.fold_max_le _).2 ⟨(Finset.le_fold_max _).2 (Or.inl le_rfl), fun i _ => ?_⟩)
      ((Finset.fold_max_le _).2 ⟨(Finset.le_fold_max _).2 (Or.inl le_rfl), fun i _ => ?_⟩)
    · exact (Finset.le_fold_max _).2 (Or.inr ⟨_, Finset.mem_univ _, le_rfl⟩)
    · exact (Finset.le_fold_max _).2 (Or.inr ⟨_, Finset.mem_univ _, le_rfl⟩)

/-- The fold of min over m + n entries from b is the smaller of the folds over the first m and over the last n entries,
    each from b. -/
theorem fold_min_append {α : Type*} [LinearOrder α] {m n : ℕ} (b : α) (f : Fin (m + n) → α) :
    (Finset.univ : Finset (Fin (m + n))).fold min b f
      = min ((Finset.univ : Finset (Fin m)).fold min b fun i => f (Fin.castAdd n i))
            ((Finset.univ : Finset (Fin n)).fold min b fun i => f (Fin.natAdd m i)) := by
  apply le_antisymm
  · refine le_min ((Finset.le_fold_min _).2 ⟨(Finset.fold_min_le _).2 (Or.inl le_rfl), fun i _ => ?_⟩)
      ((Finset.le_fold_min _).2 ⟨(Finset.fold_min_le _).2 (Or.inl le_rfl), fun i _ => ?_⟩)
    · exact (Finset.fold_min_le _).2 (Or.inr ⟨_, Finset.mem_univ _, le_rfl⟩)
    · exact (Finset.fold_min_le _).2 (Or.inr ⟨_, Finset.mem_univ _, le_rfl⟩)
  · refine (Finset.le_fold_min _).2 ⟨min_le_of_left_le ((Finset.fold_min_le _).2 (Or.inl le_rfl)), fun x _ => ?_⟩
    refine Fin.addCases (motive := fun x => _ ≤ f x) (fun i => ?_) (fun i => ?_) x
    · exact min_le_of_left_le ((Finset.fold_min_le _).2 (Or.inr ⟨i, Finset.mem_univ _, le_rfl⟩))
    · exact min_le_of_right_le ((Finset.fold_min_le _).2 (Or.inr ⟨i, Finset.mem_univ _, le_rfl⟩))

end Cert.LibFoldAppend
-- ==== Proof.Lse.lean ====
/-
  The mathematics both programs compute, stated once over the extended reals and free of either program.

  For one node n and one batch lane b the data is a row of 32 child log-marginals x c and 32 weights w c.
  With M = max_c x c (the maximum folded from the word of minus infinity) the node's value is

      log (max eps (0 + sum_c exp (x c - M) * w c)) + M,

  the weighted log-sum-exp of the row, stabilised by its maximum and clamped below by the word eps of 1e-10.
  The three words (minus infinity, zero, eps) are kept as the extended reals their bit patterns denote and are
  never evaluated: the same word stands on both sides of every equation below.

  Two regrouping laws are all the algebra needed. A row of 32 cut into four runs of 8:
    * the maximum of the row is the running maximum of the four runs' maxima (max is associative, commutative
      and idempotent, so every run may start again from the same initial word);
    * the sum over the row is the running sum of the four runs' sums (addition on the extended reals is a
      commutative monoid; no cancellation or distributivity is used, so no finiteness is needed).
-/
import Idealize.ShloMosaic.PureOps.Ideal
import Idealize.ShloMosaic.PureOps.Ideal.Laws
import Idealize.ShloMosaic.Lib.ValueIdx
import proofs.«160055_j72215580115304_2_alg».proof.Proof.LibFoldAppend

noncomputable section

open scoped BigOperators

namespace Cert.Lse

open Idealize.ShloMosaic Idealize.ShloMosaic.ValueIdx Cert.LibFoldAppend

/-- The f32 word of minus infinity, as the extended real it denotes. -/
abbrev negInf : EReal := Ideal.ofBits .f32 0xFF800000#32
/-- The f32 zero word. -/
abbrev zeroW : EReal := Ideal.ofBits .f32 0x00000000#32
/-- The f32 word nearest 1e-10, the clamp's floor. -/
abbrev floorW : EReal := Ideal.ofBits .f32 0x2EDBE6FF#32

/-- The maximum of a row of 32, folded from minus infinity. -/
def rowMax (x : Fin 32 → EReal) : EReal := (Finset.univ : Finset (Fin 32)).fold max negInf x

/-- The stabilised, clamped weighted log-sum-exp of one row. -/
def lse (x w : Fin 32 → EReal) : EReal :=
  Ideal.log (max floorW (zeroW + ∑ c : Fin 32, Ideal.exp (x c - rowMax x) * w c)) + rowMax x

/-- The whole result array: entry (n, b) is the log-sum-exp of row n of the children, lane b, with row n of the weights. -/
def G (ch : (⟨3, ![32768, 32, 128]⟩ : Shape).Idx → EReal) (w : (⟨2, ![32768, 32]⟩ : Shape).Idx → EReal) :
    (⟨2, ![32768, 128]⟩ : Shape).Idx → EReal :=
  fun i => lse (fun c => ch (ix3 (i 0) c (i 1))) (fun c => w (ix2 (i 0) c))

theorem G_apply (ch : (⟨3, ![32768, 32, 128]⟩ : Shape).Idx → EReal) (w : (⟨2, ![32768, 32]⟩ : Shape).Idx → EReal)
    (n : Fin 32768) (b : Fin 128) :
    G ch w (ix2 n b) = lse (fun c => ch (ix3 n c b)) (fun c => w (ix2 n c)) := rfl

/-! ## A row of 32 as four runs of 8 -/

/-- The four runs of 8 of a row of 32. -/
def run0 (x : Fin 32 → EReal) : Fin 8 → EReal := fun k => x ⟨k.val, by have := k.isLt; omega⟩
def run1 (x : Fin 32 → EReal) : Fin 8 → EReal := fun k => x ⟨8 + k.val, by have := k.isLt; omega⟩
def run2 (x : Fin 32 → EReal) : Fin 8 → EReal := fun k => x ⟨16 + k.val, by have := k.isLt; omega⟩
def run3 (x : Fin 32 → EReal) : Fin 8 → EReal := fun k => x ⟨24 + k.val, by have := k.isLt; omega⟩

/-- The maximum of 8 entries folded from minus infinity. -/
def max8 (y : Fin 8 → EReal) : EReal := (Finset.univ : Finset (Fin 8)).fold max negInf y

/-- The running maximum of the four runs' maxima, started from minus infinity, is the row's maximum. -/
theorem rowMax_runs (x : Fin 32 → EReal) :
    max (max (max (max negInf (max8 (run0 x))) (max8 (run1 x))) (max8 (run2 x))) (max8 (run3 x)) = rowMax x := by
  have h0 : max negInf (max8 (run0 x)) = max8 (run0 x) :=
    max_eq_right ((Finset.le_fold_max _).2 (Or.inl le_rfl))
  rw [h0]
  have e := fold_max_append (m := 8 + 8 + 8) (n := 8) negInf x
  rw [fold_max_append (m := 8 + 8) (n := 8) negInf, fold_max_append (m := 8) (n := 8) negInf] at e
  exact e.symm

/-! ## A sum over four runs laid end to end -/

/-- The running sum of the four runs' sums, started from z, is z plus the sum over the row. -/
theorem sum_runs (z : EReal) (g : Fin 32 → EReal) :
    (((z + ∑ k : Fin 8, run0 g k) + ∑ k : Fin 8, run1 g k) + ∑ k : Fin 8, run2 g k) + ∑ k : Fin 8, run3 g k
      = z + ∑ c : Fin 32, g c := by
  have e := Fin.sum_univ_add (a := 8 + 8 + 8) (b := 8) g
  rw [Fin.sum_univ_add (a := 8 + 8) (b := 8), Fin.sum_univ_add (a := 8) (b := 8)] at e
  rw [show (∑ c : Fin 32, g c) = ∑ c : Fin (8 + 8 + 8 + 8), g c from rfl, e]
  simp only [add_assoc]
  rfl

end Cert.Lse

end
-- ==== Proof.BlockLse.lean ====
/-
  What the kernel body leaves in its output block, one entry at a time.

  The body sees a block of 512 nodes: the children x0 (512 by 32 by 128) and the weights x1 (512 by 32). It reads the
  32 children in four runs of 8. First pass: the running maximum M of the four runs' maxima over the child axis, started
  from minus infinity. Second pass: the running sum, started from zero, of the four runs' sums over the child axis of
  exp (child minus M) times weight, where M is broadcast along the child axis and each run's 8 weights are a slice of
  the weight block broadcast along the lanes. Last: log of the clamp of the sum, plus M.

  At entry (p, b) every layout operation reads exactly one element of its operand: the broadcast maximum reads M (p, b),
  the broadcast weight slice starting at child o reads weight (p, o + k), run number j of the children reads
  child (p, 8 j + k, b). A reduction along the child axis of a run is a fold of max, or a sum, over k in 0..7. With
  these readings the entry is the running form of the row's log-sum-exp, and the two regrouping laws turn it into the
  row's log-sum-exp itself.
-/
import proofs.«160055_j72215580115304_2_alg».proof.Proof.Gen.KernelIdeal.Frame
import proofs.«160055_j72215580115304_2_alg».proof.Proof.Lse
import Idealize.ShloMosaic.Lib.Pipeline.Value
import Idealize.ShloMosaic.Lib.ValueIdx
import Idealize.ShloMosaic.PureOps.Ideal.Laws

noncomputable section

open scoped BigOperators

namespace Cert.BlockLse

open Cert.KernelIdeal Cert.KernelIdeal.Gen Idealize.ShloMosaic Idealize.ShloMosaic.TcCoe
open Idealize.ShloMosaic.ValueIdx Cert.Lse

/-! ## Layout operations at an entry -/

/-- A [512, 128] array given a unit child axis and broadcast along 8 children reads, at (p, k, b), the array at (p, b). -/
theorem lane_bcast_apply (M : FVec Ideal S512x128 .f32) (p : Fin 512) (k : Fin 8) (b : Fin 128) :
    broadcastTo S512x8x128 (shapeCast S512x1x128 M shapeCasts_S512x128_S512x1x128) broadcasts_S512x1x128_S512x8x128 (ix3 p k b)
      = M (ix2 p b) := by
  refine (broadcastTo_apply _ broadcasts_S512x1x128_S512x8x128 (ix3 p k b) (ix3 p (0 : Fin 1) b) fun a => ?_).trans ?_
  · match a with
    | ⟨0, _⟩ => show p.val = if (512 : Nat) = 1 then 0 else p.val; rw [if_neg (by decide)]
    | ⟨1, _⟩ => show 0 = if (1 : Nat) = 1 then 0 else k.val; rw [if_pos rfl]
    | ⟨2, _⟩ => show b.val = if (128 : Nat) = 1 then 0 else b.val; rw [if_neg (by decide)]
  · refine shapeCast_apply M shapeCasts_S512x128_S512x1x128 (ix3 p (0 : Fin 1) b) (ix2 p b) ?_
    rw [Shape.rowMajor_val_two, Shape.rowMajor_val_three]
    show p.val * 128 + b.val = (p.val * 1 + 0) * 128 + b.val
    omega

/-- The 8 weights from child o on, given a unit lane axis and broadcast along the 128 lanes, read at (p, k, b) the
    weight at (p, o + k). -/
theorem weight_bcast_apply (w1 : FVec Ideal S512x32 .f32) (o : Nat) (sl : S512x32.Slices ![0, o] S512x8)
    (p : Fin 512) (k : Fin 8) (b : Fin 128) (c : Fin 32) (hc : c.val = o + k.val) :
    broadcastTo S512x8x128 (shapeCast S512x8x1 (extractStridedSlice S512x8 ![0, o] w1 sl) shapeCasts_S512x8_S512x8x1)
        broadcasts_S512x8x1_S512x8x128 (ix3 p k b)
      = w1 (ix2 p c) := by
  refine (broadcastTo_apply _ broadcasts_S512x8x1_S512x8x128 (ix3 p k b) (ix3 p k (0 : Fin 1)) fun a => ?_).trans ?_
  · match a with
    | ⟨0, _⟩ => show p.val = if (512 : Nat) = 1 then 0 else p.val; rw [if_neg (by decide)]
    | ⟨1, _⟩ => show k.val = if (8 : Nat) = 1 then 0 else k.val; rw [if_neg (by decide)]
    | ⟨2, _⟩ => show 0 = if (1 : Nat) = 1 then 0 else b.val; rw [if_pos rfl]
  · refine (shapeCast_apply _ shapeCasts_S512x8_S512x8x1 (ix3 p k (0 : Fin 1)) (ix2 p k) ?_).trans ?_
    · rw [Shape.rowMajor_val_two, Shape.rowMajor_val_three]
      show p.val * 8 + k.val = (p.val * 8 + k.val) * 1 + 0
      omega
    · refine extractStridedSlice_apply ![0, o] w1 sl (ix2 p k) (ix2 p c) fun a => ?_
      match a with
      | ⟨0, _⟩ => show p.val = 0 + p.val; omega
      | ⟨1, _⟩ => show c.val = o + k.val; exact hc

/-- Run j of the children, loaded from the staged block through its rectangle, reads child 8 j + k. -/
theorem load_run0 (x0 : Vec Ideal S512x32x128 .f32) (p : Fin 512) (k : Fin 8) (b : Fin 128) (c : Fin 32) (hc : c.val = k.val) :
    View.ld x0 r0_1 (ix3 p k b) = x0 (ix3 p c b) :=
  congrArg x0 (funext fun a => Fin.ext (by
    match a with
    | ⟨0, _⟩ => show 0 + 1 * p.val = p.val; omega
    | ⟨1, _⟩ => show 0 + 1 * k.val = c.val; omega
    | ⟨2, _⟩ => show 0 + 1 * b.val = b.val; omega))
theorem load_run1 (x0 : Vec Ideal S512x32x128 .f32) (p : Fin 512) (k : Fin 8) (b : Fin 128) (c : Fin 32) (hc : c.val = 8 + k.val) :
    View.ld x0 r0_2 (ix3 p k b) = x0 (ix3 p c b) :=
  congrArg x0 (funext fun a => Fin.ext (by
    match a with
    | ⟨0, _⟩ => show 0 + 1 * p.val = p.val; omega
    | ⟨1, _⟩ => show 8 + 1 * k.val = c.val; omega
    | ⟨2, _⟩ => show 0 + 1 * b.val = b.val; omega))
theorem load_run2 (x0 : Vec Ideal S512x32x128 .f32) (p : Fin 512) (k : Fin 8) (b : Fin 128) (c : Fin 32) (hc : c.val = 16 + k.val) :
    View.ld x0 r0_3 (ix3 p k b) = x0 (ix3 p c b) :=
  congrArg x0 (funext fun a => Fin.ext (by
    match a with
    | ⟨0, _⟩ => show 0 + 1 * p.val = p.val; omega
    | ⟨1, _⟩ => show 16 + 1 * k.val = c.val; omega
    | ⟨2, _⟩ => show 0 + 1 * b.val = b.val; omega))
theorem load_run3 (x0 : Vec Ideal S512x32x128 .f32) (p : Fin 512) (k : Fin 8) (b : Fin 128) (c : Fin 32) (hc : c.val = 24 + k.val) :
    View.ld x0 r0_4 (ix3 p k b) = x0 (ix3 p c b) :=
  congrArg x0 (funext fun a => Fin.ext (by
    match a with
    | ⟨0, _⟩ => show 0 + 1 * p.val = p.val; omega
    | ⟨1, _⟩ => show 24 + 1 * k.val = c.val; omega
    | ⟨2, _⟩ => show 0 + 1 * b.val = b.val; omega))

/-- The reduced entry (p, b) with child k put back is (p, k, b). -/
theorem lift_child (p : Fin 512) (b : Fin 128) (k : Fin 8) :
    reduces_S512x8x128_S512x128.lift (ix2 p b) k = ix3 p k b :=
  funext fun a => Fin.ext (by match a with | ⟨0, _⟩ => rfl | ⟨1, _⟩ => rfl | ⟨2, _⟩ => rfl)

/-! ## The two reductions of one run -/

/-- The maximum of one run along the child axis, from minus infinity, at (p, b). -/
theorem run_max_apply (v : Vec Ideal S512x8x128 .f32) (p : Fin 512) (b : Fin 128) :
    multiReduction (F := Ideal) .maximumf [1] S512x128 (shapeCast S512x8x128 v shapeCasts_S512x8x128_S512x8x128) 0xFF800000#32
        reduces_S512x8x128_S512x128 (.inl rfl) rfl (ix2 p b)
      = max8 fun k => v (ix3 p k b) := by
  refine (Ideal.multiReduction_maximumf_single _ _ reduces_S512x8x128_S512x128 (.inl rfl) rfl (ix2 p b)).trans ?_
  rw [shapeCast_self]
  have hf : (v ∘ reduces_S512x8x128_S512x128.lift (ix2 p b)) = fun k : Fin 8 => v (ix3 p k b) :=
    funext fun k => congrArg v (lift_child p b k)
  exact congrArg (fun f => Finset.fold max negInf f (Finset.univ : Finset (Fin 8))) hf

/-- The weighted exp-sum of one run along the child axis at (p, b): the run's children v, the maximum M, the weights
    from child o on. -/
theorem run_sum_apply (v : Vec Ideal S512x8x128 .f32) (M : FVec Ideal S512x128 .f32) (w1 : FVec Ideal S512x32 .f32)
    (o : Nat) (ho : o + 8 ≤ 32) (sl : S512x32.Slices ![0, o] S512x8) (p : Fin 512) (b : Fin 128) :
    multiReduction (F := Ideal) .add [1] S512x128
        (mulf (exp (subf (shapeCast S512x8x128 v shapeCasts_S512x8x128_S512x8x128)
            (broadcastTo S512x8x128 (shapeCast S512x1x128 M shapeCasts_S512x128_S512x1x128) broadcasts_S512x1x128_S512x8x128)))
          (broadcastTo S512x8x128 (shapeCast S512x8x1 (extractStridedSlice S512x8 ![0, o] w1 sl) shapeCasts_S512x8_S512x8x1)
            broadcasts_S512x8x1_S512x8x128))
        0x00000000#32 reduces_S512x8x128_S512x128 (.inl rfl) rfl (ix2 p b)
      = ∑ k : Fin 8, Ideal.exp (v (ix3 p k b) - M (ix2 p b)) * w1 (ix2 p ⟨o + k.val, by have := k.isLt; omega⟩) := by
  refine (Ideal.multiReduction_add_single _ _ reduces_S512x8x128_S512x128 (.inl rfl) rfl (ix2 p b)).trans ?_
  refine Finset.sum_congr rfl fun (k : Fin 8) _ => ?_
  rw [lift_child p b k]
  show Ideal.exp (shapeCast S512x8x128 v shapeCasts_S512x8x128_S512x8x128 (ix3 p k b) - _) * _ = _
  rw [shapeCast_self, lane_bcast_apply M p k b, weight_bcast_apply w1 o sl p k b ⟨o + k.val, by have := k.isLt; omega⟩ rfl]

/-! ## The three payloads at an entry -/

/-- The first pass: the running maximum of the four runs' maxima. -/
theorem pass_max_apply (v3 v7 v11 v15 : Vec Ideal S512x8x128 .f32) (p : Fin 512) (b : Fin 128) :
    k0_pay3 (F := Ideal) v3 v7 v11 v15 (ix2 p b)
      = max (max (max (max negInf (max8 fun k => v3 (ix3 p k b))) (max8 fun k => v7 (ix3 p k b)))
          (max8 fun k => v11 (ix3 p k b))) (max8 fun k => v15 (ix3 p k b)) := by
  unfold k0_pay3
  show max (max (max (max negInf (multiReduction (F := Ideal) .maximumf [1] S512x128 _ 0xFF800000#32 reduces_S512x8x128_S512x128 (.inl rfl) rfl (ix2 p b)))
      (multiReduction (F := Ideal) .maximumf [1] S512x128 _ 0xFF800000#32 reduces_S512x8x128_S512x128 (.inl rfl) rfl (ix2 p b)))
      (multiReduction (F := Ideal) .maximumf [1] S512x128 _ 0xFF800000#32 reduces_S512x8x128_S512x128 (.inl rfl) rfl (ix2 p b)))
      (multiReduction (F := Ideal) .maximumf [1] S512x128 _ 0xFF800000#32 reduces_S512x8x128_S512x128 (.inl rfl) rfl (ix2 p b)) = _
  rw [run_max_apply v3 p b, run_max_apply v7 p b, run_max_apply v11 p b, run_max_apply v15 p b]

/-- The second pass's first step: zero plus run 0's weighted exp-sum. -/
theorem pass_sum0_apply (v0 : Vec Ideal S512x32 .f32) (v3 v7 v11 v15 v20 : Vec Ideal S512x8x128 .f32) (p : Fin 512) (b : Fin 128) :
    k0_pay4 (F := Ideal) v0 v3 v7 v11 v15 v20 (ix2 p b)
      = zeroW + ∑ k : Fin 8, Ideal.exp (v20 (ix3 p k b) - k0_pay3 (F := Ideal) v3 v7 v11 v15 (ix2 p b))
          * v0 (ix2 p ⟨0 + k.val, by have := k.isLt; omega⟩) := by
  unfold k0_pay4
  show zeroW + multiReduction (F := Ideal) .add [1] S512x128 _ 0x00000000#32 reduces_S512x8x128_S512x128 (.inl rfl) rfl (ix2 p b) = _
  rw [run_sum_apply v20 (k0_pay3 (F := Ideal) v3 v7 v11 v15) (k0_pay2 (F := Ideal) v0) 0 (by omega) slices_S512x32_o0_0_S512x8 p b]
  unfold k0_pay2
  rw [shapeCast_self]

/-- The second pass's last three steps, the clamp, the logarithm and the maximum added back. -/
theorem pass_out_apply (v1 : FVec Ideal S512x32 .f32) (v18 v31 : FVec Ideal S512x128 .f32) (v32 v44 v56 : Vec Ideal S512x8x128 .f32)
    (p : Fin 512) (b : Fin 128) :
    k0_pay1 (F := Ideal) v1 v18 v31 v32 v44 v56 (ix2 p b)
      = Ideal.log (max floorW (((v31 (ix2 p b)
            + ∑ k : Fin 8, Ideal.exp (v32 (ix3 p k b) - v18 (ix2 p b)) * v1 (ix2 p ⟨8 + k.val, by have := k.isLt; omega⟩))
            + ∑ k : Fin 8, Ideal.exp (v44 (ix3 p k b) - v18 (ix2 p b)) * v1 (ix2 p ⟨16 + k.val, by have := k.isLt; omega⟩))
            + ∑ k : Fin 8, Ideal.exp (v56 (ix3 p k b) - v18 (ix2 p b)) * v1 (ix2 p ⟨24 + k.val, by have := k.isLt; omega⟩)))
          + v18 (ix2 p b) := by
  unfold k0_pay1
  show Ideal.log (max floorW (((v31 (ix2 p b)
      + multiReduction (F := Ideal) .add [1] S512x128 _ 0x00000000#32 reduces_S512x8x128_S512x128 (.inl rfl) rfl (ix2 p b))
      + multiReduction (F := Ideal) .add [1] S512x128 _ 0x00000000#32 reduces_S512x8x128_S512x128 (.inl rfl) rfl (ix2 p b))
      + multiReduction (F := Ideal) .add [1] S512x128 _ 0x00000000#32 reduces_S512x8x128_S512x128 (.inl rfl) rfl (ix2 p b))) + v18 (ix2 p b) = _
  rw [run_sum_apply v32 v18 v1 8 (by omega) slices_S512x32_o0_8_S512x8 p b,
    run_sum_apply v44 v18 v1 16 (by omega) slices_S512x32_o0_16_S512x8 p b,
    run_sum_apply v56 v18 v1 24 (by omega) slices_S512x32_o0_24_S512x8 p b]

end Cert.BlockLse

end
-- ==== Proof.BlockEntry.lean ====
/-
  The kernel body's output block is, entry by entry, the log-sum-exp of the matching row of its two input blocks.

  The stored value at (p, b) is log (clamp (running sum over the four runs)) plus the running maximum over the four
  runs, each run being 8 consecutive children of the staged block. Run j of the staged children is run j of the row
  c -> child (p, c, b), and its 8 weights are run j of the row c -> weight (p, c). So the running maximum is the row's
  maximum and the running sum is zero plus the row's sum, by the two regrouping laws.
-/
import proofs.«160055_j72215580115304_2_alg».proof.Proof.BlockLse

noncomputable section

open scoped BigOperators

namespace Cert.BlockLse

open Cert.KernelIdeal Cert.KernelIdeal.Gen Idealize.ShloMosaic Idealize.ShloMosaic.TcCoe
open Idealize.ShloMosaic.ValueIdx Cert.Lse

theorem zero2 : (![0, 0] : Fin 2 → Nat) = fun _ => 0 := funext fun a => by fin_cases a <;> rfl

/-- The identity cast of the weight block is the weight block. -/
theorem weights_cast (v0 : Vec Ideal S512x32 .f32) : k0_pay2 (F := Ideal) v0 = v0 := by
  unfold k0_pay2
  exact shapeCast_self _ _

/-- Entry (p, b) of what the body stores, from the two staged blocks. -/
theorem block_entry (x0 : Vec Ideal S512x32x128 .f32) (x1 : Vec Ideal S512x32 .f32) (p : Fin 512) (b : Fin 128) :
    out0_2 (F := Ideal) x0 x1 (ix2 p b) = lse (fun c => x0 (ix3 p c b)) (fun c => x1 (ix2 p c)) := by
  unfold out0_2
  rw [View.canon_unit_zero zero2, View.ld_unit_zero (S := S512x32) zero2, weights_cast,
    pass_out_apply, pass_sum0_apply, pass_max_apply]
  -- the row of children and the row of weights at (p, b), and the row's summands
  have e0 : (fun k : Fin 8 => View.ld x0 r0_1 (ix3 p k b)) = run0 fun c => x0 (ix3 p c b) :=
    funext fun k => load_run0 x0 p k b ⟨k.val, by have := k.isLt; omega⟩ rfl
  have e1 : (fun k : Fin 8 => View.ld x0 r0_2 (ix3 p k b)) = run1 fun c => x0 (ix3 p c b) :=
    funext fun k => load_run1 x0 p k b ⟨8 + k.val, by have := k.isLt; omega⟩ rfl
  have e2 : (fun k : Fin 8 => View.ld x0 r0_3 (ix3 p k b)) = run2 fun c => x0 (ix3 p c b) :=
    funext fun k => load_run2 x0 p k b ⟨16 + k.val, by have := k.isLt; omega⟩ rfl
  have e3 : (fun k : Fin 8 => View.ld x0 r0_4 (ix3 p k b)) = run3 fun c => x0 (ix3 p c b) :=
    funext fun k => load_run3 x0 p k b ⟨24 + k.val, by have := k.isLt; omega⟩ rfl
  rw [e0, e1, e2, e3, rowMax_runs]
  unfold lse
  rw [← sum_runs zeroW fun c => Ideal.exp (x0 (ix3 p c b) - rowMax fun c => x0 (ix3 p c b)) * x1 (ix2 p c)]
  have s0 : (∑ k : Fin 8, Ideal.exp (View.ld x0 r0_1 (ix3 p k b) - rowMax fun c => x0 (ix3 p c b))
        * x1 (ix2 p ⟨0 + k.val, by have := k.isLt; omega⟩))
      = ∑ k : Fin 8, run0 (fun c => Ideal.exp (x0 (ix3 p c b) - rowMax fun c => x0 (ix3 p c b)) * x1 (ix2 p c)) k :=
    Finset.sum_congr rfl fun k _ => by
      rw [load_run0 x0 p k b ⟨k.val, by have := k.isLt; omega⟩ rfl]
      exact congrArg (fun c : Fin 32 => Ideal.exp (x0 (ix3 p ⟨k.val, by have := k.isLt; omega⟩ b) - rowMax fun c => x0 (ix3 p c b)) * x1 (ix2 p c))
        (Fin.ext (by show 0 + k.val = k.val; omega))
  have s1 : (∑ k : Fin 8, Ideal.exp (View.ld x0 r0_2 (ix3 p k b) - rowMax fun c => x0 (ix3 p c b))
        * x1 (ix2 p ⟨8 + k.val, by have := k.isLt; omega⟩))
      = ∑ k : Fin 8, run1 (fun c => Ideal.exp (x0 (ix3 p c b) - rowMax fun c => x0 (ix3 p c b)) * x1 (ix2 p c)) k :=
    Finset.sum_congr rfl fun k _ => by
      rw [load_run1 x0 p k b ⟨8 + k.val, by have := k.isLt; omega⟩ rfl]; rfl
  have s2 : (∑ k : Fin 8, Ideal.exp (View.ld x0 r0_3 (ix3 p k b) - rowMax fun c => x0 (ix3 p c b))
        * x1 (ix2 p ⟨16 + k.val, by have := k.isLt; omega⟩))
      = ∑ k : Fin 8, run2 (fun c => Ideal.exp (x0 (ix3 p c b) - rowMax fun c => x0 (ix3 p c b)) * x1 (ix2 p c)) k :=
    Finset.sum_congr rfl fun k _ => by
      rw [load_run2 x0 p k b ⟨16 + k.val, by have := k.isLt; omega⟩ rfl]; rfl
  have s3 : (∑ k : Fin 8, Ideal.exp (View.ld x0 r0_4 (ix3 p k b) - rowMax fun c => x0 (ix3 p c b))
        * x1 (ix2 p ⟨24 + k.val, by have := k.isLt; omega⟩))
      = ∑ k : Fin 8, run3 (fun c => Ideal.exp (x0 (ix3 p c b) - rowMax fun c => x0 (ix3 p c b)) * x1 (ix2 p c)) k :=
    Finset.sum_congr rfl fun k _ => by
      rw [load_run3 x0 p k b ⟨24 + k.val, by have := k.isLt; omega⟩ rfl]; rfl
  rw [s0, s1, s2, s3]

end Cert.BlockLse

end
-- ==== Proof.ArrayLse.lean ====
/-
  From the blocks to the whole array: after the kernel's run its result array is the row-wise log-sum-exp of the two
  arrays it was launched on.

  The grid has 64 points. Point t stages rows 512 t .. 512 t + 511 of the children (all 32 children, all 128 lanes) and of
  the weights (all 32), and writes back rows 512 t .. 512 t + 511 of the result (all 128 lanes): the three index maps
  move together along the node axis and stay at 0 on every other axis. So entry (p, b) of the block point t writes back
  depends only on row 512 t + p of the two arrays, and by the block lemma it is that row's log-sum-exp. The 64 blocks
  cover every row, hence the whole result array is the one function G of the children and weights arrays as the kernel
  finds them.
-/
import proofs.«160055_j72215580115304_2_alg».proof.Proof.BlockEntry
import Idealize.ShloMosaic.Lib.Pipeline.Value

noncomputable section

namespace Cert.ArrayLse

open Cert.KernelIdeal Cert.KernelIdeal.Gen Idealize.ShloMosaic Idealize.ShloMosaic.TcCoe Idealize.SL.Sem
open Idealize.ShloMosaic.Pipeline (Dat)
open Idealize.ShloMosaic.ValueIdx Cert.Lse Cert.BlockLse

variable (m : (ℓ : Loc nD τ sig) → Buf (Elt Ideal) ℓ)

/-- The three index maps over the grid: the children's and the weights' blocks sit at the result block's position on
    the node axis and at 0 elsewhere; the result's position on the node axis is at most 63 and 0 on the lane axis. -/
theorem index_facts : ∀ t : Fin cfg0.N,
    win0_0.index t (0 : Fin 3) = win0_2.index t (0 : Fin 2) ∧ win0_0.index t (1 : Fin 3) = 0 ∧ win0_0.index t (2 : Fin 3) = 0
    ∧ win0_1.index t (0 : Fin 2) = win0_2.index t (0 : Fin 2) ∧ win0_1.index t (1 : Fin 2) = 0
    ∧ win0_2.index t (1 : Fin 2) = 0 ∧ win0_2.index t (0 : Fin 2) ≤ 63 :=
  (by decide +kernel : ∀ t : Fin grid0.N, _)

/-- Every block of 512 rows is some point's. -/
theorem index_onto : ∀ q : Fin 64, ∃ t : Fin cfg0.N, win0_2.index t = ![q.val, 0] :=
  (by decide +kernel : ∀ q : Fin 64, ∃ t : Fin grid0.N, win0_2.index t = ![q.val, 0])

/-- Entry (p, b) of what point t leaves in the result's staging buffer is the log-sum-exp of row 512 t + p. -/
theorem point_entry (c : Dev nD) (t : Fin cfg0.N) (p : Fin 512) (b : Fin 128) (n : Fin 32768)
    (hn : n.val = win0_2.index t (0 : Fin 2) * 512 + p.val) :
    out0_2 (F := Ideal) (iblk m c 0 t) (iblk m c 1 t) (ix2 p b) = G (V m c main_v6) (V m c main_v13) (ix2 n b) := by
  obtain ⟨e00, e01, e02, e10, e11, e21, hle⟩ := index_facts t
  refine (block_entry (iblk m c 0 t) (iblk m c 1 t) p b).trans ?_
  rw [G_apply]
  have hch : (fun k : Fin 32 => iblk m c 0 t (ix3 p k b)) = fun k : Fin 32 => V m c main_v6 (ix3 n k b) := by
    funext k
    show V m c main_v6 (((cfg0.win 0).blk t).view.emb (ix3 p k b)) = V m c main_v6 (ix3 n k b)
    refine congrArg (V m c main_v6) (funext fun a => Fin.ext ?_)
    match a with
    | ⟨0, _⟩ => show win0_0.index t (0 : Fin 3) * 512 + 1 * p.val = n.val; omega
    | ⟨1, _⟩ => show win0_0.index t (1 : Fin 3) * 32 + 1 * k.val = k.val; omega
    | ⟨2, _⟩ => show win0_0.index t (2 : Fin 3) * 128 + 1 * b.val = b.val; omega
  have hw : (fun k : Fin 32 => iblk m c 1 t (ix2 p k)) = fun k : Fin 32 => V m c main_v13 (ix2 n k) := by
    funext k
    show V m c main_v13 (((cfg0.win 1).blk t).view.emb (ix2 p k)) = V m c main_v13 (ix2 n k)
    refine congrArg (V m c main_v13) (funext fun a => Fin.ext ?_)
    match a with
    | ⟨0, _⟩ => show win0_1.index t (0 : Fin 2) * 512 + 1 * p.val = n.val; omega
    | ⟨1, _⟩ => show win0_1.index t (1 : Fin 2) * 32 + 1 * k.val = k.val; omega
  rw [hch, hw]

/-- What point t writes back is block t of G of the two arrays as the kernel finds them. -/
theorem flushed_eq (c : Dev nD) (t : Fin cfg0.N) :
    (dats m 0 c).flushed 2 t = ((cfg0.win 2).blk t).view.read (Elt Ideal) (G (V m c main_v6) (V m c main_v13)) := by
  show (cfg0.win 2).cut (grid0.coords t) ((dats m 0 c).after 2 t) = _
  rw [after0_2]
  obtain ⟨e00, e01, e02, e10, e11, e21, hle⟩ := index_facts t
  funext j
  have hj0 : (j 0).val < 512 := (j 0).isLt
  have hj1 : (j 1).val < 128 := (j 1).isLt
  show out0_2 (F := Ideal) (iblk m c 0 t) (iblk m c 1 t) ((cfg0.win 2).xinj (grid0.coords t) j)
    = G (V m c main_v6) (V m c main_v13) (((cfg0.win 2).blk t).view.emb j)
  have hx : (cfg0.win 2).xinj (grid0.coords t) j = ix2 (⟨(j 0).val, hj0⟩ : Fin 512) (⟨(j 1).val, hj1⟩ : Fin 128) :=
    funext fun a => Fin.ext (by match a with | ⟨0, _⟩ => rfl | ⟨1, _⟩ => rfl)
  have he : ((cfg0.win 2).blk t).view.emb j
      = ix2 (⟨win0_2.index t (0 : Fin 2) * 512 + (j 0).val, by omega⟩ : Fin 32768) (⟨(j 1).val, hj1⟩ : Fin 128) :=
    funext fun a => Fin.ext (by
      match a with
      | ⟨0, _⟩ => show win0_2.index t (0 : Fin 2) * 512 + 1 * (j 0).val = win0_2.index t (0 : Fin 2) * 512 + (j 0).val; omega
      | ⟨1, _⟩ => show win0_2.index t (1 : Fin 2) * 128 + 1 * (j 1).val = (j 1).val; omega)
  rw [hx, he]
  exact point_entry m c t _ _ _ rfl

/-- An index of the array is in point t's block iff each coordinate is in the block's range on its axis. -/
theorem mem_blk (t : Fin cfg0.N) (i : S32768x128.Idx) :
    i ∈ ((cfg0.win 2).blk t).view.set ↔ ∀ a : Fin 2, win0_2.index t a * S512x128.size a ≤ (i a).val ∧ (i a).val < win0_2.index t a * S512x128.size a + S512x128.size a := by
  show i ∈ ((View.whole main_v14).slice (win0_2.rect t)).set ↔ _
  rw [View.set_slice_whole, Rect.mem_set_unit]
  exact Iff.rfl

/-- Every index of the result array is in some point's block: row r is in block r / 512. -/
theorem cover (i : S32768x128.Idx) :
    ∃ t : Fin cfg0.N, (cfg0.win 2).flush t = true ∧ i ∈ ((cfg0.win 2).blk t).view.set := by
  have hi0 : (i 0).val < 32768 := (i 0).isLt
  have hi1 : (i 1).val < 128 := (i 1).isLt
  obtain ⟨t, ht⟩ := index_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 128 ≤ (i 1).val ∧ (i 1).val < win0_2.index t (1 : Fin 2) * 128 + 128; omega

/-- The result array after the kernel's run: G of the children and weights arrays as the kernel finds them. -/
theorem final (c : Dev nD) : (dats m 0 c).arrAt 2 cfg0.N = G (V m c main_v6) (V m c main_v13) :=
  (dats m 0 c).arrAt_eq_of_cover 2 (G (V m c main_v6) (V m c main_v13)) (fun t _ => flushed_eq m c t) cover

end Cert.ArrayLse

end
-- ==== Proof.Gathered.lean ====
/-
  The two arrays the kernel is launched on are the reference's two gathered arrays.

  Before the kernel both programs run the same host lines on the same arguments: a negative index is wrapped by adding
  the table's length, the indices get a trailing unit axis, and the table is gathered at them - the children from the
  second argument at the fifth, the weights from the third argument at the sixth. Which elements a gather picks is never
  looked at: the two programs' gathers are the same function of the same arguments, and that is all that is used.
-/
import proofs.«160055_j72215580115304_2_alg».proof.Proof.Gen.KernelIdeal.Frame
import proofs.«160055_j72215580115304_2_alg».proof.Proof.Gen.ReferenceIdeal.Read
import Idealize.ShloMosaic.Lib.StableHlo.Run

noncomputable section

namespace Cert.Gathered

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The children array as the kernel finds it: the reference's gather of the second argument at the fifth. -/
theorem children_eq (c : Dev nD) :
    V m c main_v6 = Cert.ReferenceIdeal.Read.val_main_v6 (F := Ideal)
      (m ((c.tc : Thread nD τ).loc main_arg1)) (m ((c.tc : Thread nD τ).loc main_arg4)) := by
  show StableHlo.after hostOps0 (fun b => m (c, b)) (Proc.devRef .tc main_v6) = _
  after_results
  rfl

/-- The weights array as the kernel finds it: the reference's gather of the third argument at the sixth. -/
theorem weights_eq (c : Dev nD) :
    V m c main_v13 = Cert.ReferenceIdeal.Read.val_main_v15 (F := Ideal)
      (m ((c.tc : Thread nD τ).loc main_arg2)) (m ((c.tc : Thread nD τ).loc main_arg5)) := by
  show StableHlo.after hostOps0 (fun b => m (c, b)) (Proc.devRef .tc main_v13) = _
  after_results
  rfl

end Cert.Gathered

end
-- ==== Proof.RefLse.lean ====
/-
  The reference computes the row-wise weighted log-sum-exp of the gathered children and weights.

  Read one operation at a time, the reference's value before the final scatter is, at entry (n, b): the logarithm of
  the clamp of (zero plus the sum over the 32 children c of exp (child (n, c, b) minus the maximum over the children
  of lane b) times weight (n, c)), plus that same maximum. The maximum is the host's reduction with a max body along
  the child axis from the word of minus infinity: a fold of max over the 32 children. The two gathered arrays (the
  children and the weights) enter only as arrays: which elements the gathers pick is never looked at.
-/
import proofs.«160055_j72215580115304_2_alg».proof.Proof.Gen.ReferenceIdeal.Read
import proofs.«160055_j72215580115304_2_alg».proof.Proof.Lse
import Idealize.ShloMosaic.PureOps.Reduce
import Idealize.ShloMosaic.Lib.ValueIdx

noncomputable section

open scoped BigOperators

namespace Cert.RefLse

open Cert.ReferenceIdeal Cert.ReferenceIdeal.Gen Cert.ReferenceIdeal.Read Idealize.ShloMosaic Idealize.ShloMosaic.TcCoe
open Idealize.ShloMosaic.ValueIdx Cert.Lse

variable (x1 : (⟨S65536x128, .f32⟩ : BufTy).Contents (Elt Ideal)) (x2 : (⟨S1048576, .f32⟩ : BufTy).Contents (Elt Ideal))
  (x4 x5 : (⟨S32768x32, .i32⟩ : BufTy).Contents (Elt Ideal))

/-! ## Where each layout operation reads its operand -/

/-- Summand c of the sum at (n, b) sits at (n, c, b). -/
theorem at_sum (n : Fin 32768) (b : Fin 128) (k : Fin 32) : idx_main_v22 (ix2 n b) k = ix3 n k b := by
  funext a; apply Fin.ext
  match a with
  | ⟨0, _⟩ => rfl
  | ⟨1, _⟩ => rfl
  | ⟨2, _⟩ => rfl

/-- The maximum broadcast back over the children reads, at (n, c, b), the maximum at (n, b). -/
theorem at_max_bcast (n : Fin 32768) (k : Fin 32) (b : Fin 128) : idx_main_v8 (idx_main_v17 (ix3 n k b)) = ix2 n b := by
  funext a; apply Fin.ext
  match a with
  | ⟨0, _⟩ => rfl
  | ⟨1, _⟩ => rfl

/-- The weights broadcast over the lanes read, at (n, c, b), the weight at (n, c). -/
theorem at_w_bcast (n : Fin 32768) (k : Fin 32) (b : Fin 128) : idx_main_v16 (idx_main_v20 (ix3 n k b)) = ix2 n k := by
  funext a; apply Fin.ext
  match a with
  | ⟨0, _⟩ => rfl
  | ⟨1, _⟩ => rfl

/-- The kept-axis maximum reshaped back to two axes reads, at (n, b), the maximum at (n, b): the row-major position
    n * 128 + b has quotient n and remainder b by 128. -/
theorem at_max_reshape (n : Fin 32768) (b : Fin 128) : idx_main_v8 (idx_main_v25 (ix2 n b)) = ix2 n b := by
  have hn := n.isLt
  have hb := b.isLt
  funext a; apply Fin.ext
  match a with
  | ⟨0, _⟩ => show (n.val * 128 + b.val) / 128 = n.val; omega
  | ⟨1, _⟩ => show (n.val * 128 + b.val) % 128 = b.val; omega

/-! ## The maximum over the children -/

/-- The host's reduction with a max body along the child axis, from minus infinity, at (n, b): the fold of max over
    the 32 children of lane b of node n. -/
theorem max_apply (n : Fin 32768) (b : Fin 128) :
    val_main_v7 (F := Ideal) x1 x4 (ix2 n b) = rowMax fun c => val_main_v6 (F := Ideal) x1 x4 (ix3 n c b) := by
  unfold val_main_v7
  generalize val_main_v6 (F := Ideal) x1 x4 = y
  have h : S32768x32x128.Reduces [1] S32768x128 := by decide
  refine (Host.reduce_eq_fold_single (FloatOps.maximumf (F := Ideal) (φ := .f32)) y (val_main_cst (F := Ideal))
    reducesTo_S32768x32x128_S32768x128_d1 h h_S_ (ix2 n b)).trans ?_
  have hf : (y ∘ h.lift (ix2 n b)) = fun c : Fin 32 => y (ix3 n c b) :=
    funext fun k => congrArg y (funext fun a => Fin.ext (by match a with | ⟨0, _⟩ => rfl | ⟨1, _⟩ => rfl | ⟨2, _⟩ => rfl))
  exact congrArg (fun f => Finset.fold max negInf f (Finset.univ : Finset (Fin 32))) hf

/-! ## One summand, and the whole entry -/

/-- Summand c at (n, b): exp (child minus the lane's maximum) times the weight. -/
theorem summand_apply (n : Fin 32768) (b : Fin 128) (k : Fin 32) :
    val_main_v21 (F := Ideal) x1 x2 x4 x5 (idx_main_v22 (ix2 n b) k)
      = Ideal.exp (val_main_v6 (F := Ideal) x1 x4 (ix3 n k b) - rowMax fun c => val_main_v6 (F := Ideal) x1 x4 (ix3 n c b))
          * val_main_v15 (F := Ideal) x2 x5 (ix2 n k) := by
  rw [at_sum n b k, val_main_v21_apply, val_main_v19_apply, val_main_v18_apply, val_main_v17_apply, val_main_v8_apply,
    val_main_v20_apply, val_main_v16_apply, at_max_bcast n k b, at_w_bcast n k b, max_apply x1 x4 n b]
  rfl

/-- The reference's value before its final scatter is the row-wise weighted log-sum-exp of the two gathered arrays. -/
theorem value_eq :
    val_main_v26 (F := Ideal) x1 x2 x4 x5 = G (val_main_v6 (F := Ideal) x1 x4) (val_main_v15 (F := Ideal) x2 x5) := by
  funext i
  obtain ⟨n, b, rfl⟩ : ∃ (n : Fin 32768) (b : Fin 128), i = ix2 n b := ⟨i 0, i 1, eq_ix2 i⟩
  rw [G_apply, val_main_v26_apply, val_main_v24_apply, val_main_v23_apply, val_main_call0_v1_apply, val_main_call0_v0_apply,
    val_main_cst_4_apply, val_main_v22_apply, val_main_cst_3_apply, val_main_v25_apply, val_main_v8_apply,
    at_max_reshape n b, max_apply x1 x4 n b]
  simp only [summand_apply x1 x2 x4 x5 n b]
  rfl

end Cert.RefLse

end
-- ==== Proof.KernelRun.lean ====
/-
  The idealized kernel's whole run, read back: its result is the reference's final stage applied to the kernel's own
  arguments.

  After the kernel the program scatters the kernel's result array into the first argument at the (wrapped) fourth
  argument - the same scatter, by the same host lines, as the reference's last stage. The kernel's result array is the
  row-wise log-sum-exp of the two gathered arrays, and so is the reference's value before its scatter; the scatter is
  applied to equal operands and is never opened. The first and fourth arguments pass the kernel untouched: no window
  stages them.
-/
import proofs.«160055_j72215580115304_2_alg».proof.Proof.ArrayLse
import proofs.«160055_j72215580115304_2_alg».proof.Proof.Gathered
import proofs.«160055_j72215580115304_2_alg».proof.Proof.RefLse
import Idealize.ShloMosaic.Lib.StableHlo.Run

noncomputable section

namespace Cert.KernelRun

open Cert.KernelIdeal Cert.KernelIdeal.Gen Idealize.ShloMosaic Idealize.ShloMosaic.TcCoe Idealize.SL.Sem
open Idealize.ShloMosaic.StableHlo
open Idealize.ShloMosaic.Pipeline (Dat)
open Cert.ReferenceIdeal.Read (val_main_v26 val_main_v33)

variable (m : (ℓ : Loc nD τ sig) → Buf (Elt Ideal) ℓ) (ρ : Dev nD → PrngReg)

/-- The kernel's result array after its run is the reference's value before its final scatter, at the kernel's arguments:
    both are the row-wise log-sum-exp of the same two gathered arrays. -/
theorem region_result (c : Dev nD) :
    (dats m 0 c).arrAt 2 cfg0.N
      = val_main_v26 (F := Ideal) (m ((c.tc : Thread nD τ).loc main_arg1)) (m ((c.tc : Thread nD τ).loc main_arg2)) (m ((c.tc : Thread nD τ).loc main_arg4)) (m ((c.tc : Thread nD τ).loc main_arg5)) := by
  rw [Cert.ArrayLse.final m c, Cert.Gathered.children_eq m c, Cert.Gathered.weights_eq m c, ← Cert.RefLse.value_eq]

/-- The host lines after the kernel leave, in the result buffer, the reference's final stage of the kernel's arguments. -/
theorem tail_eq (c : Dev nD) :
    Pipeline.afterTail₀ cfgs (dats m) 0 (V0 m) [hostOps1] c main_v21
      = val_main_v33 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Pipeline.afterTail₀
  show StableHlo.after hostOps1 _ (Proc.devRef .tc main_v21) = _
  after_results
  have h0 : Pipeline.withArrays (cfgs 0).spec c (V0 m c) (fun w => (dats m 0 c).arrAt w (cfgs 0).N) (Proc.devRef .tc main_arg0)
      = (m ((c.tc : Thread nD τ).loc main_arg0)) :=
    (Pipeline.withArrays_of_ne _ c (V0 m c) _ main_arg0 (by exact (by decide : ∀ w, Pipeline.arrRef spec0 w ≠ main_arg0))).trans
      (V_main_arg0 m c)
  have h3 : Pipeline.withArrays (cfgs 0).spec c (V0 m c) (fun w => (dats m 0 c).arrAt w (cfgs 0).N) (Proc.devRef .tc main_arg3)
      = (m ((c.tc : Thread nD τ).loc main_arg3)) :=
    (Pipeline.withArrays_of_ne _ c (V0 m c) _ main_arg3 (by exact (by decide : ∀ w, Pipeline.arrRef spec0 w ≠ main_arg3))).trans
      (V_main_arg3 m c)
  have h14 : Pipeline.withArrays (cfgs 0).spec c (V0 m c) (fun w => (dats m 0 c).arrAt w (cfgs 0).N) (Proc.devRef .tc main_v14)
      = val_main_v26 (F := Ideal) (m ((c.tc : Thread nD τ).loc main_arg1)) (m ((c.tc : Thread nD τ).loc main_arg2)) (m ((c.tc : Thread nD τ).loc main_arg4)) (m ((c.tc : Thread nD τ).loc main_arg5)) :=
    (Pipeline.withArrays_arr spec0 launch0.win.arr_inj c (V0 m c) (fun w => (dats m 0 c).arrAt w cfg0.N) 2).trans
      (region_result m c)
  rw [h0, h3, h14]
  rfl

/-- Every weakly fair execution of the idealized kernel's program terminates with the result buffer at the reference's
    final stage of the arguments, and the arguments unchanged. -/
theorem run : θ_run defs (onTc (τ := τ) (main (F := Ideal))) ⟨m, fun _ => 0, ρ⟩ fun r => ∀ c : Dev nD,
      r.2.mem ((c.tc : Thread nD τ).loc main_v21) = val_main_v33 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v21 (Pipeline.mem_restRefs_of main_v21 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelRun

end
-- ==== Proof.lean ====
/-
  The certificate: a tiled kernel computing, per node and batch lane, the stabilised weighted log-sum-exp over the
  node's 32 gathered children, against its one-shot reference, over the extended reals.

  Both programs gather the children and the weights by the same host lines, compute for each (node, lane)

      log (max eps (sum over the children c of exp (child c - M) * weight c)) + M,     M = max over the children,

  and scatter the values into the first argument by the same host lines. The kernel tiles the nodes in blocks of 512
  and walks the 32 children in four runs of 8, keeping a running maximum and then a running sum; the reference takes
  one maximum and one sum over all 32. On the extended reals max and + are associative and commutative (max idempotent
  as well), so the running forms equal the one-shot forms with no appeal to finiteness: the precondition is not used
  by the value claim.

  The three frames: the kernel's two are the generated frame certificates; the reference has no kernel, and its frame
  is its generated run with the result dropped. The idealization rewrote nothing, so preserves is trivial. The value
  claim pairs the kernel's run read back (Proof/KernelRun.lean: blocks to array, then the host lines after the kernel)
  with the reference's generated run, both posted at the same term: the reference's final stage of the arguments.
-/
import proofs.«160055_j72215580115304_2_alg».proof.Defs
import proofs.«160055_j72215580115304_2_alg».proof.Proof.Gen.Kernel
import proofs.«160055_j72215580115304_2_alg».proof.Proof.Gen.Kernel.Frame
import proofs.«160055_j72215580115304_2_alg».proof.Proof.Gen.KernelIdeal
import proofs.«160055_j72215580115304_2_alg».proof.Proof.Gen.KernelIdeal.Frame
import proofs.«160055_j72215580115304_2_alg».proof.Proof.Gen.ReferenceIdeal
import proofs.«160055_j72215580115304_2_alg».proof.Proof.Gen.Pre_finite_inputs
import proofs.«160055_j72215580115304_2_alg».proof.Proof.Gen.ReferenceIdeal.Run
import proofs.«160055_j72215580115304_2_alg».proof.Proof.Gen.ReferenceIdeal.Read
import proofs.«160055_j72215580115304_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs end with the result buffer at the reference's
    final stage of the (kernel's) arguments: the kernel by its run read back, the reference by its generated run with
    the arguments' agreement rewritten. -/
theorem algebraic : Cert.algebraic_KernelIdeal_ReferenceIdeal := by
  intro m ρ m' ρ' _ hagree
  refine ⟨fun c => Cert.ReferenceIdeal.Read.val_main_v33 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact Cert.ReferenceIdeal.Read.val_main_v33_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
